-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S5632x2048 : S_.BroadcastsInDim S5632x2048 (![] : Fin 0 → Fin S5632x2048.rank)
  reducesTo_S5632x2048_S_d0_1 : S5632x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn_part1 {F : FTy → Type} [FloatOps F] (main_arg4 : FVec F S2048x5632 .f32) (main_v13 : IVec S_ 1) (main_v16 : IVec S5632x2048 1) : IVec S_ 1 :=
  let main_c_5 : IVec S_ 1 := constantI S_ 1 1#1
  let main_v17 : IVec S_ 1 := (fun x v => Host.reduce IntOp.andi x v reducesTo_S5632x2048_S_d0_1 h_S_) main_v16 main_c_5
  let main_v18 : IVec S_ 1 := andi main_v13 main_v17
  let main_v19 : FVec F S2048x5632 .f32 := Host.absf main_arg4
  let main_cst_6 : FVec F S_ .f32 := constant S_ .f32 0x7F800000#32
  let main_v20 : FVec F S2048x5632 .f32 := broadcastInDim S2048x5632 ![] bcast_S_S2048x5632 main_cst_6
  let main_v21 : IVec S2048x5632 1 := cmpf .olt main_v19 main_v20
  let main_c_7 : IVec S_ 1 := constantI S_ 1 1#1
  let main_v22 : IVec S_ 1 := (fun x v => Host.reduce IntOp.andi x v reducesTo_S2048x5632_S_d0_1 h_S_) main_v21 main_c_7
  let main_v23 : IVec S_ 1 := andi main_v18 main_v22
  main_v23

def fn {F : FTy → Type} [FloatOps F] (main_arg0 : FVec F S8192x2048 .f32) (main_arg1 : FVec F S2048x2048 .f32) (main_arg2 : FVec F S5632x2048 .f32) (main_arg3 : FVec F S5632x2048 .f32) (main_arg4 : FVec F S2048x5632 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S5632x2048 .f32 := Host.absf main_arg2
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S5632x2048 .f32 := Host.absf main_arg3
  let main_cst_4 : FVec F S_ .f32 := constant S_ .f32 0x7F800000#32
  let main_v15 : FVec F S5632x2048 .f32 := broadcastInDim S5632x2048 ![] bcast_S_S5632x2048 main_cst_4
  let main_v16 : IVec S5632x2048 1 := cmpf .olt main_v14 main_v15
  fn_part1 (F := F) main_arg4 main_v13 main_v16
-- ==== Kernel.lean ====
abbrev S8192x2048 : Shape := ⟨2, ![8192, 2048]⟩
abbrev S2048x2048 : Shape := ⟨2, ![2048, 2048]⟩
abbrev S5632x2048 : Shape := ⟨2, ![5632, 2048]⟩
abbrev S2048x5632 : Shape := ⟨2, ![2048, 5632]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 11
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S5632x2048, .f32⟩
  | .hbm, ⟨3, _⟩ => ⟨S5632x2048, .f32⟩
  | .hbm, ⟨4, _⟩ => ⟨S2048x5632, .f32⟩
  | .hbm, ⟨5, _⟩ => ⟨S2048x2048, .bf16⟩
  | .hbm, ⟨6, _⟩ => ⟨S5632x2048, .bf16⟩
  | .hbm, ⟨7, _⟩ => ⟨S5632x2048, .bf16⟩
  | .hbm, ⟨8, _⟩ => ⟨S2048x5632, .bf16⟩
  | .hbm, ⟨9, _⟩ => ⟨S8192x2048, .bf16⟩
  | .hbm, ⟨10, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .f32⟩
  | .local _ .vmem, ⟨14, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S512x2048_S512x2048_0_0 : (Rect.unit (s := S512x2048) ![0, 0] S512x2048.size inb_S512x2048_S512x2048_0_0).PackedRows (EltTy.packing .bf16)
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  dot_S512x2048_S2048x2048_S512x2048_1_1_0_0_n_n_wf : DotDims.WF S512x2048 S2048x2048 S512x2048 [1] [1] [0] [0] [] []
  dot_S512x2048_S512x2048_S512x512_1_1_0_0_n_n_wf : DotDims.WF S512x2048 S512x2048 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .bf16 = 32 ∨ (Rect.block (s := S8192x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S5632x2048.size a
  hwx1_1 : ∀ i : grid1.Coords, EltTy.bits .bf16 = 32 ∨ (Rect.block (s := S5632x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S5632x2048.size a
  hwx1_2 : ∀ i : grid1.Coords, EltTy.bits .bf16 = 32 ∨ (Rect.block (s := S5632x2048) S512x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S2048x5632.size a
  hwx1_3 : ∀ i : grid1.Coords, EltTy.bits .bf16 = 32 ∨ (Rect.block (s := S2048x5632) S2048x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x2048.size a ≤ S8192x2048.size a
  hwx1_4 : ∀ i : grid1.Coords, EltTy.bits .f32 = 32 ∨ (Rect.block (s := S8192x2048) S512x2048.size (cc1_transform_4 i) (hinb1_4 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S5632x2048 : Shape := ⟨2, ![5632, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S5632x2048, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S8192x2048, .f32⟩
  | .hbm, ⟨7, _⟩ => ⟨S2048x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S2048x5632, .f32⟩
  | .hbm, ⟨19, _⟩ => ⟨S8192x5632, .f32⟩
  | .hbm, ⟨20, _⟩ => ⟨S8192x5632, .f32⟩
  | .hbm, ⟨21, _⟩ => ⟨S5632x2048, .f32⟩
  | .hbm, ⟨22, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]

class Facts₀ : Prop where
  transposes_S2048x2048_S2048x2048_1_0 : S2048x2048.Transposes [1, 0] S2048x2048
  transposes_S5632x2048_S2048x5632_1_0 : S5632x2048.Transposes [1, 0] S2048x5632
  bcast_S_S8192x5632 : S_.BroadcastsInDim S8192x5632 (![] : Fin 0 → Fin S8192x5632.rank)
  transposes_S2048x5632_S5632x2048_1_0 : S2048x5632.Transposes [1, 0] S5632x2048
  dot_S8192x2048_S2048x2048_S8192x2048_1_0_0_1_n_n_wf : DotDims.WF S8192x2048 S2048x2048 S8192x2048 [1] [0] [0] [1] [] []
  dot_S8192x2048_S2048x5632_S8192x5632_1_0_0_1_n_n_wf : DotDims.WF S8192x2048 S2048x5632 S8192x5632 [1] [0] [0] [1] [] []
  dot_S8192x5632_S5632x2048_S8192x2048_1_0_0_1_n_n_wf : DotDims.WF S8192x5632 S5632x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S2048x5632_S8192x5632_1_0_0_1_n_n : DotDims S8192x2048 S2048x5632 S8192x5632 where
  lhsContracting := [1]
  rhsContracting := [0]
  lhsNonContracting := [0]
  rhsNonContracting := [1]
  lhsBatch := []
  rhsBatch := []
  wf := dot_S8192x2048_S2048x5632_S8192x5632_1_0_0_1_n_n_wf
def dot_S8192x5632_S5632x2048_S8192x2048_1_0_0_1_n_n : DotDims S8192x5632 S5632x2048 S8192x2048 where
  lhsContracting := [1]
  rhsContracting := [0]
  lhsNonContracting := [0]
  rhsNonContracting := [1]
  lhsBatch := []
  rhsBatch := []
  wf := dot_S8192x5632_S5632x2048_S8192x2048_1_0_0_1_n_n_wf

class Facts : Prop extends Facts₀ where

variable [Facts]
-- ==== Proof.KernelRun.lean ====
/-
  The two-call program's run with its RESULT named. The program is a stretch of four format changes on the host, the
  rotation call and the fused gate/up/down call. Its run walks the buffer contents through those three segments; the
  contents at the last boundary give, beside the five argument arrays as launched, the result array: what the second
  call's output window leaves after its last write-back.
-/
import proofs.«100881_j59047210385427_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run_out : θ_run defs (onTc (τ := τ) (main (F := F))) ⟨m, fun _ => 0, ρ⟩ (fun r => ∀ c : Dev nD,
      r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v5 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

/-- The result array at the last boundary is what the fused call's output window leaves after its last write-back. -/
theorem result_arr (c : Dev nD) :
    W3 m ρ c (Proc.devRef .tc main_v5) = (dat1 (V2 m ρ) c).arrAt 4 cfg1.N := W3_arr m ρ c 4

/-- The rotated activations the fused call reads are what the rotation call's output window left. -/
theorem rotated_arr (c : Dev nD) :
    V2 m ρ c main_v4 = (dat0 (V1 m ρ) c).arrAt 2 cfg0.N := W2_arr m ρ c 2

end Cert.KernelIdeal.Out

end
-- ==== Proof.Spec.lean ====
/-
  The mathematics of the rotated gated MLP, over the extended reals, with no program in sight.

  Every product in it is "rows against rows": for A : [a, d] and B : [b, d], the array A·Bᵀ : [a, b] whose (r, n) entry is
  the sum over k of A[r, k] · B[n, k]. With x_rot = x·Hᵀ, the hidden activations are
      hid[r, n] = (s · logistic s) · u,   s = (x_rot·gate_wᵀ)[r, n],  u = (x_rot·up_wᵀ)[r, n],
  and the result is hid·down_wᵀ. The same three operations at the extents of one tile are what one grid point of each
  call computes, so the definitions are stated at any extents.

  The one law used beyond reading both programs index by index: a sum over 5632 hidden units is the sum over the 11
  tiles of 512 of the sums inside each tile. It is a re-indexing of a finite sum in a commutative monoid (the extended
  reals under +), so it holds at the infinities too and no finiteness of the inputs is needed.
-/
import Idealize.ShloMosaic.PureOps.Ideal
import Idealize.ShloMosaic.Lib.ValueIdx

noncomputable section

namespace Cert.RotatedMlp

open Idealize.ShloMosaic Idealize.ShloMosaic.ValueIdx

/-- A two-axis array of extended reals, of extents a × b. -/
abbrev Arr (a b : Nat) : Type := (⟨2, ![a, b]⟩ : Shape).Idx → EReal

/-- Row r of A against row n of B over their shared second axis: the (r, n) entry of A·Bᵀ. -/
def rowDot {a b d : Nat} (A : Arr a d) (B : Arr b d) (r : Fin a) (n : Fin b) : EReal :=
  ∑ k : Fin d, A (ix2 r k) * B (ix2 n k)

/-- A·Bᵀ. -/
def timesT {a b d : Nat} (A : Arr a d) (B : Arr b d) : Arr a b := fun i => rowDot A B (i 0) (i 1)

theorem timesT_apply {a b d : Nat} (A : Arr a d) (B : Arr b d) (r : Fin a) (n : Fin b) :
    timesT A B (ix2 r n) = rowDot A B r n := rfl

/-- The gated hidden activations: with s = (XR·GWᵀ) and u = (XR·UWᵀ), entry by entry (s · logistic s) · u. -/
def gated {a b d : Nat} (XR : Arr a d) (GW UW : Arr b d) : Arr a b :=
  fun i => (rowDot XR GW (i 0) (i 1) * Ideal.logistic (rowDot XR GW (i 0) (i 1))) * rowDot XR UW (i 0) (i 1)

theorem gated_apply {a b d : Nat} (XR : Arr a d) (GW UW : Arr b d) (r : Fin a) (n : Fin b) :
    gated XR GW UW (ix2 r n) = (rowDot XR GW r n * Ideal.logistic (rowDot XR GW r n)) * rowDot XR UW r n := rfl

/-- The whole computation: rotate, gate, project down. -/
def mlp (X : Arr 8192 2048) (H : Arr 2048 2048) (GW UW : Arr 5632 2048) (DW : Arr 2048 5632) : Arr 8192 2048 :=
  timesT (gated (timesT X H) GW UW) DW

/-- A sum over the 5632 hidden units, tile by tile: 11 tiles of 512, unit 512·s + n' the n'-th of tile s. -/
theorem sum_tiles {M : Type*} [AddCommMonoid M] (f : Fin 5632 → M) :
    ∑ s : Fin 11, ∑ n' : Fin 512, f ⟨512 * s.val + n'.val, by have := s.isLt; have := n'.isLt; omega⟩ = ∑ n : Fin 5632, f n := by
  rw [← Fintype.sum_prod_type']
  refine Fintype.sum_equiv (finProdFinEquiv (m := 11) (n := 512)) _ _ fun x => ?_
  refine congrArg f (Fin.ext ?_)
  show 512 * x.1.val + x.2.val = x.2.val + 512 * x.1.val
  omega

end Cert.RotatedMlp

end
-- ==== Proof.Payloads.lean ====
/-
  What one grid point of each call computes, as the specification's operations on its loaded tiles.

  Each call's products contract the SECOND axis of both operands into a zero accumulator, so read at an index (p, n)
  they are the sum over k of left[p, k] · right[n, k]: row p against row n. A change of float format is the identity on
  the extended reals, and a shape cast to the same shape changes nothing. Hence the rotation call's stored tile is
  x_tile · Hᵀ, and the fused call's stored tile is the running tile plus (gated tile) · down_tileᵀ, where the gated tile
  is (s · logistic s) · u of the two products of the rotated tile with the gate and up tiles; the reset stores zeros.
-/
import proofs.«100881_j59047210385427_2_alg».proof.Proof.Gen.KernelIdeal.Skeleton
import proofs.«100881_j59047210385427_2_alg».proof.Proof.Spec
import Idealize.ShloMosaic.PureOps.Ideal.Laws
import Idealize.ShloMosaic.Lib.Pipeline.Value
import Idealize.ShloMosaic.Lib.ValueIdx

noncomputable section

namespace Cert.KernelIdeal.Tile

open Cert.KernelIdeal Cert.KernelIdeal.Gen Cert.RotatedMlp
open Idealize.ShloMosaic Idealize.ShloMosaic.ValueIdx

/-! ## The three products, read at an index -/

theorem rotDot_lhs0 (i : S512x2048.Idx) (q : dot_S512x2048_S2048x2048_S512x2048_1_1_0_0_n_n.contr.Idx) : (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem rotDot_lhs1 (i : S512x2048.Idx) (q : dot_S512x2048_S2048x2048_S512x2048_1_1_0_0_n_n.contr.Idx) : (dot_S512x2048_S2048x2048_S512x2048_1_1_0_0_n_n.lhsIdx i q 1).val = (q ⟨0, by decide⟩).val :=
  dot_S512x2048_S2048x2048_S512x2048_1_1_0_0_n_n.lhsIdx_val_of_single rfl i q
theorem rotDot_rhs0 (i : S512x2048.Idx) (q : dot_S512x2048_S2048x2048_S512x2048_1_1_0_0_n_n.contr.Idx) : (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rotDot_rhs1 (i : S512x2048.Idx) (q : dot_S512x2048_S2048x2048_S512x2048_1_1_0_0_n_n.contr.Idx) : (dot_S512x2048_S2048x2048_S512x2048_1_1_0_0_n_n.rhsIdx i q 1).val = (q ⟨0, by decide⟩).val :=
  dot_S512x2048_S2048x2048_S512x2048_1_1_0_0_n_n.rhsIdx_val_of_single rfl i q

/-- Into the zero accumulator, the product's (p, n) entry is row p of the left operand against row n of the right. -/
theorem rotDot_apply (l : FVec Ideal S512x2048 .bf16) (r : FVec Ideal S2048x2048 .bf16) (p : Fin 512) (n : Fin 2048) :
    matmul dot_S512x2048_S2048x2048_S512x2048_1_1_0_0_n_n none l r (constant (F := Ideal) S512x2048 .f32 0x00000000#32) (ix2 p n) = rowDot l r p n := by
  simp only [matmul]
  rw [Ideal.matmul_constant_zero_apply, ← Equiv.sum_comp (contrEquiv1 dot_S512x2048_S2048x2048_S512x2048_1_1_0_0_n_n 2048 rfl rfl).symm]
  unfold rowDot
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p n) ((contrEquiv1 dot_S512x2048_S2048x2048_S512x2048_1_1_0_0_n_n 2048 rfl rfl).symm k) = ix2 p k := funext fun a => Fin.ext (by
    match a with
    | ⟨0, _⟩ => exact rotDot_lhs0 _ _
    | ⟨1, _⟩ => exact (rotDot_lhs1 _ _).trans hk)
  have er : dot_S512x2048_S2048x2048_S512x2048_1_1_0_0_n_n.rhsIdx (ix2 p n) ((contrEquiv1 dot_S512x2048_S2048x2048_S512x2048_1_1_0_0_n_n 2048 rfl rfl).symm k) = ix2 n k := funext fun a => Fin.ext (by
    match a with
    | ⟨0, _⟩ => exact rotDot_rhs0 _ _
    | ⟨1, _⟩ => exact (rotDot_rhs1 _ _).trans hk)
  rw [el, er]

theorem gateDot_lhs0 (i : S512x512.Idx) (q : dot_S512x2048_S512x2048_S512x512_1_1_0_0_n_n.contr.Idx) : (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem gateDot_lhs1 (i : S512x512.Idx) (q : dot_S512x2048_S512x2048_S512x512_1_1_0_0_n_n.contr.Idx) : (dot_S512x2048_S512x2048_S512x512_1_1_0_0_n_n.lhsIdx i q 1).val = (q ⟨0, by decide⟩).val :=
  dot_S512x2048_S512x2048_S512x512_1_1_0_0_n_n.lhsIdx_val_of_single rfl i q
theorem gateDot_rhs0 (i : S512x512.Idx) (q : dot_S512x2048_S512x2048_S512x512_1_1_0_0_n_n.contr.Idx) : (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
theorem gateDot_rhs1 (i : S512x512.Idx) (q : dot_S512x2048_S512x2048_S512x512_1_1_0_0_n_n.contr.Idx) : (dot_S512x2048_S512x2048_S512x512_1_1_0_0_n_n.rhsIdx i q 1).val = (q ⟨0, by decide⟩).val :=
  dot_S512x2048_S512x2048_S512x512_1_1_0_0_n_n.rhsIdx_val_of_single rfl i q

/-- Into the zero accumulator, the product's (p, n) entry is row p of the left operand against row n of the right. -/
theorem gateDot_apply (l : FVec Ideal S512x2048 .bf16) (r : FVec Ideal S512x2048 .bf16) (p : Fin 512) (n : Fin 512) :
    matmul dot_S512x2048_S512x2048_S512x512_1_1_0_0_n_n none l r (constant (F := Ideal) S512x512 .f32 0x00000000#32) (ix2 p n) = rowDot l r p n := by
  simp only [matmul]
  rw [Ideal.matmul_constant_zero_apply, ← Equiv.sum_comp (contrEquiv1 dot_S512x2048_S512x2048_S512x512_1_1_0_0_n_n 2048 rfl rfl).symm]
  unfold rowDot
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 p n) ((contrEquiv1 dot_S512x2048_S512x2048_S512x512_1_1_0_0_n_n 2048 rfl rfl).symm k) = ix2 p k := funext fun a => Fin.ext (by
    match a with
    | ⟨0, _⟩ => exact gateDot_lhs0 _ _
    | ⟨1, _⟩ => exact (gateDot_lhs1 _ _).trans hk)
  have er : dot_S512x2048_S512x2048_S512x512_1_1_0_0_n_n.rhsIdx (ix2 p n) ((contrEquiv1 dot_S512x2048_S512x2048_S512x512_1_1_0_0_n_n 2048 rfl rfl).symm k) = ix2 n k := funext fun a => Fin.ext (by
    match a with
    | ⟨0, _⟩ => exact gateDot_rhs0 _ _
    | ⟨1, _⟩ => exact (gateDot_rhs1 _ _).trans hk)
  rw [el, er]

theorem downDot_lhs0 (i : S512x2048.Idx) (q : dot_S512x512_S2048x512_S512x2048_1_1_0_0_n_n.contr.Idx) : (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem downDot_lhs1 (i : S512x2048.Idx) (q : dot_S512x512_S2048x512_S512x2048_1_1_0_0_n_n.contr.Idx) : (dot_S512x512_S2048x512_S512x2048_1_1_0_0_n_n.lhsIdx i q 1).val = (q ⟨0, by decide⟩).val :=
  dot_S512x512_S2048x512_S512x2048_1_1_0_0_n_n.lhsIdx_val_of_single rfl i q
theorem downDot_rhs0 (i : S512x2048.Idx) (q : dot_S512x512_S2048x512_S512x2048_1_1_0_0_n_n.contr.Idx) : (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem downDot_rhs1 (i : S512x2048.Idx) (q : dot_S512x512_S2048x512_S512x2048_1_1_0_0_n_n.contr.Idx) : (dot_S512x512_S2048x512_S512x2048_1_1_0_0_n_n.rhsIdx i q 1).val = (q ⟨0, by decide⟩).val :=
  dot_S512x512_S2048x512_S512x2048_1_1_0_0_n_n.rhsIdx_val_of_single rfl i q

/-- Into the zero accumulator, the product's (p, n) entry is row p of the left operand against row n of the right. -/
theorem downDot_apply (l : FVec Ideal S512x512 .bf16) (r : FVec Ideal S2048x512 .bf16) (p : Fin 512) (n : Fin 2048) :
    matmul dot_S512x512_S2048x512_S512x2048_1_1_0_0_n_n none l r (constant (F := Ideal) S512x2048 .f32 0x00000000#32) (ix2 p n) = rowDot l r p n := by
  simp only [matmul]
  rw [Ideal.matmul_constant_zero_apply, ← Equiv.sum_comp (contrEquiv1 dot_S512x512_S2048x512_S512x2048_1_1_0_0_n_n 512 rfl rfl).symm]
  unfold rowDot
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p n) ((contrEquiv1 dot_S512x512_S2048x512_S512x2048_1_1_0_0_n_n 512 rfl rfl).symm k) = ix2 p k := funext fun a => Fin.ext (by
    match a with
    | ⟨0, _⟩ => exact downDot_lhs0 _ _
    | ⟨1, _⟩ => exact (downDot_lhs1 _ _).trans hk)
  have er : dot_S512x512_S2048x512_S512x2048_1_1_0_0_n_n.rhsIdx (ix2 p n) ((contrEquiv1 dot_S512x512_S2048x512_S512x2048_1_1_0_0_n_n 512 rfl rfl).symm k) = ix2 n k := funext fun a => Fin.ext (by
    match a with
    | ⟨0, _⟩ => exact downDot_rhs0 _ _
    | ⟨1, _⟩ => exact (downDot_rhs1 _ _).trans hk)
  rw [el, er]

/-! ## The bodies' stored tiles -/

/-- The logistic of a vector, read at an index. -/
theorem logistic_apply {s : Shape} {φ : FTy} (v : FVec Ideal s φ) (i : s.Idx) : logistic v i = Ideal.logistic (v i) := rfl

/-- The rotation call stores x_tile · Hᵀ. -/
theorem rot_payload (x0 : Vec Ideal S512x2048 .f32) (x1 : Vec Ideal S2048x2048 .bf16) :
    k0_pay1 (F := Ideal) x0 x1 = timesT x0 x1 := by
  funext j
  obtain ⟨p, q, rfl⟩ : ∃ (p : Fin 512) (q : Fin 2048), j = ix2 p q := ⟨j 0, j 1, eq_ix2 j⟩
  unfold k0_pay1
  rw [truncf_apply, shapeCast_self, rotDot_apply, timesT_apply]
  rfl

/-- The fused call's reset stores zeros. -/
theorem zero_payload (y : S512x2048.Idx) : k1_pay1 (F := Ideal) y = 0 := by
  unfold k1_pay1
  exact Ideal.ofBits_zero_f32

/-- The fused call stores the running tile plus (gated tile) · down_tileᵀ. -/
theorem fused_payload (x0 x1 x2 : Vec Ideal S512x2048 .bf16) (x3 : Vec Ideal S2048x512 .bf16) (xo : Vec Ideal S512x2048 .f32)
    (y : S512x2048.Idx) :
    k1_pay2 (F := Ideal) x0 x1 x2 x3 xo y = xo y + timesT (gated x0 x1 x2) x3 y := by
  obtain ⟨p, q, rfl⟩ : ∃ (p : Fin 512) (q : Fin 2048), y = ix2 p q := ⟨y 0, y 1, eq_ix2 y⟩
  unfold k1_pay2
  rw [addf_apply, shapeCast_self, shapeCast_self, shapeCast_self, shapeCast_self, shapeCast_self, downDot_apply, timesT_apply]
  refine congrArg (xo (ix2 p q) + ·) ?_
  unfold rowDot
  refine Finset.sum_congr rfl fun n _ => ?_
  refine congrArg (· * x3 (ix2 q n)) ?_
  rw [truncf_apply, mulf_apply, mulf_apply, logistic_apply, gateDot_apply, gateDot_apply, gated_apply]

end Cert.KernelIdeal.Tile

end
-- ==== Proof.Rotation.lean ====
/-
  The rotation call's result array is x · Hᵀ.

  Grid point t of 16 loads rows 512t … 512t + 511 of x and all of H, and writes back the same rows of the output. By the
  payload's reading the stored tile is (x's row tile) · Hᵀ, which is those rows of x · Hᵀ: row 512t + p against row n.
  Every point writes back and the 16 row tiles cover the 8192 rows, so the array ends at x · Hᵀ whatever it held.
  Stated at ANY contents V of the buffers when the call is entered.
-/
import proofs.«100881_j59047210385427_2_alg».proof.Proof.Gen.KernelIdeal.Frame
import proofs.«100881_j59047210385427_2_alg».proof.Proof.Payloads

set_option maxRecDepth 16384

noncomputable section

namespace Cert.KernelIdeal.Rot

open Cert.KernelIdeal Cert.KernelIdeal.Gen Cert.RotatedMlp Cert.KernelIdeal.Tile
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 16 points: x's and the output's blocks are (t, 0); H's is always (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt16 (t : Fin cfg0.N) : t.val < 16 := lt_of_lt_of_eq t.isLt (show cfg0.N = 16 from N_0)

/-- x's block at point t, entry (p, k): row 512t + p of x. -/
theorem x_block (c : Dev nD) (t : Fin cfg0.N) (p : Fin 512) (k : Fin 2048) :
    (iblk0 V c 0 t : Vec Ideal S512x2048 .f32) (ix2 p k)
      = V c main_arg0 (ix2 ⟨512 * t.val + p.val, by have := lt16 t; have := p.isLt; omega⟩ k) := by
  obtain ⟨e0, e1, -, -, -, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 512 + 1 * p.val = 512 * t.val + p.val; rw [e0]; omega
  | ⟨1, _⟩ => show win0_0.index t (1 : Fin 2) * 2048 + 1 * k.val = k.val; rw [e1]; omega

/-- H's block at every point is H. -/
theorem h_block (c : Dev nD) (t : Fin cfg0.N) (n : Fin 2048) (k : Fin 2048) :
    (iblk0 V c 1 t : Vec Ideal S2048x2048 .bf16) (ix2 n k) = V c main_v0 (ix2 n k) := by
  obtain ⟨-, -, e2, e3, -, -⟩ := idx_facts t
  unfold iblk0
  rw [View.read_apply]
  show V c main_v0 _ = V c main_v0 _
  refine congrArg (V c main_v0) (funext fun a => Fin.ext ?_)
  match a with
  | ⟨0, _⟩ => show win0_1.index t (0 : Fin 2) * 2048 + 1 * n.val = n.val; rw [e2]; omega
  | ⟨1, _⟩ => show win0_1.index t (1 : Fin 2) * 2048 + 1 * k.val = k.val; rw [e3]; omega

/-- What point t writes back is block t of x · Hᵀ. -/
theorem flushed_eq (c : Dev nD) (t : Fin cfg0.N) :
    (dat0 V c).flushed 2 t = ((cfg0.win 2).blk t).view.read (Elt Ideal) (timesT (V c main_arg0) (V c main_v0)) := by
  show (cfg0.win 2).cut (grid0.coords t) ((dat0 V c).after 2 t) = _
  rw [after0_2]
  unfold out0_2
  rw [View.canon_unit_zero hz]
  simp only [View.ld_unit_zero (S := S512x2048) hz, View.ld_unit_zero (S := S2048x2048) hz]
  rw [rot_payload]
  obtain ⟨-, -, -, -, e4, e5⟩ := idx_facts t
  funext j
  obtain ⟨p, q, rfl⟩ : ∃ (p : Fin 512) (q : Fin 2048), j = ix2 p q := ⟨j 0, j 1, eq_ix2 j⟩
  have hemb : ((cfg0.win 2).blk t).view.emb (ix2 p q)
      = ix2 (n0 := 8192) (n1 := 2048) ⟨512 * t.val + p.val, by have := lt16 t; have := p.isLt; omega⟩ q := by
    funext a; apply Fin.ext
    match a with
    | ⟨0, _⟩ => show win0_2.index t (0 : Fin 2) * 512 + 1 * p.val = 512 * t.val + p.val; rw [e4]; omega
    | ⟨1, _⟩ => show win0_2.index t (1 : Fin 2) * 2048 + 1 * q.val = q.val; rw [e5]; omega
  show timesT (iblk0 V c 0 t : Vec Ideal S512x2048 .f32) (iblk0 V c 1 t : Vec Ideal S2048x2048 .bf16) (ix2 p q)
    = timesT (V c main_arg0) (V c main_v0) (((cfg0.win 2).blk t).view.emb (ix2 p q))
  rw [hemb, timesT_apply, timesT_apply]
  unfold rowDot
  refine Finset.sum_congr rfl fun k _ => ?_
  rw [x_block V c t p k, h_block V c t q k]

/-- An index of the array is in point t's block iff each coordinate is in the block's range on its axis. -/
theorem mem_blk (t : Fin cfg0.N) (i : S8192x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v4).slice (win0_2.rect t)).set ↔ _
  rw [View.set_slice_whole, Rect.mem_set_unit]
  exact Iff.rfl

/-- Row r lies in the block of point r / 512. -/
theorem cover (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  have hN : cfg0.N = 16 := N_0
  let t : Fin cfg0.N := ⟨(i 0).val / 512, by rw [hN]; omega⟩
  have htv : t.val = (i 0).val / 512 := rfl
  obtain ⟨-, -, -, -, e4, e5⟩ := idx_facts t
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; rw [e4, htv]; omega
  | ⟨1, _⟩ => show win0_2.index t (1 : Fin 2) * 2048 ≤ (i 1).val ∧ (i 1).val < win0_2.index t (1 : Fin 2) * 2048 + 2048; rw [e5]; omega

/-- The array after the call: x · Hᵀ of the arrays the call was entered with. -/
theorem final (c : Dev nD) : (dat0 V c).arrAt 2 cfg0.N = timesT (V c main_arg0) (V c main_v0) :=
  (dat0 V c).arrAt_eq_of_cover 2 (timesT (V c main_arg0) (V c main_v0)) (fun t _ => flushed_eq V c t) cover

end Cert.KernelIdeal.Rot

end
-- ==== Proof.FusedCases.lean ====
/-
  What one grid point of the fused call leaves in its output tile, at any float instance.

  At the first point of a row tile's run (hidden tile 0) the body stores zeros, reads them back and stores
  "zeros + this tile's contribution"; at every later point it reads what the point before left and stores that plus
  this tile's contribution. In both cases the last store covers the whole tile, so what is left is that store's payload.
-/
import proofs.«100881_j59047210385427_2_alg».proof.Proof.Gen.KernelIdeal.Frame
import Idealize.ShloMosaic.Lib.Pipeline.Value
import Idealize.ShloMosaic.Lib.Tactic

set_option maxRecDepth 16384

noncomputable section

namespace Cert.KernelIdeal.FusedCases

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- A later point: the running tile xo plus this point's contribution. -/
theorem later (c : Dev nD) (i : grid1.Coords) (a2 : Memref sig .tc .vmem S512x2048 .bf16) (h2 : a2.IsWhole) (a3 : Memref sig .tc .vmem S512x2048 .bf16) (h3 : a3.IsWhole) (a4 : Memref sig .tc .vmem S512x2048 .bf16) (h4 : a4.IsWhole) (a5 : Memref sig .tc .vmem S2048x512 .bf16) (h5 : a5.IsWhole) (a6 : Memref sig .tc .vmem S512x2048 .f32) (h6 : a6.IsWhole) (hc : ¬cond1_0 i)
    (x0 x1 x2 : Vec F S512x2048 .bf16) (x3 : Vec F S2048x512 .bf16) (xo : Vec F S512x2048 .f32) :
    out1_B_4 c i a2 h2 a3 h3 a4 h4 a5 h5 a6 h6 hc x0 x1 x2 x3 xo = k1_pay2 x0 x1 x2 x3 xo := by
  unfold out1_B_4
  rw [View.read_writes_eq_canon _ _ _ (cover1_B_4 c i a2 h2 a3 h3 a4 h4 a5 h5 a6 h6 hc x0 x1 x2 x3 xo)]
  unfold kernelRun1_B
  dsimp only
  rw [View.canon_unit_zero hz]
  simp only [View.readAt_eq_ld, h2.read_unread, h3.read_unread, h4.read_unread, h5.read_unread, h6.read_unread,
    View.ld_unit_zero (S := S512x2048) hz, View.ld_unit_zero (S := S2048x512) hz]

/-- The first point of a run: the zero tile plus this point's contribution. -/
theorem first (c : Dev nD) (i : grid1.Coords) (a2 : Memref sig .tc .vmem S512x2048 .bf16) (h2 : a2.IsWhole) (a3 : Memref sig .tc .vmem S512x2048 .bf16) (h3 : a3.IsWhole) (a4 : Memref sig .tc .vmem S512x2048 .bf16) (h4 : a4.IsWhole) (a5 : Memref sig .tc .vmem S2048x512 .bf16) (h5 : a5.IsWhole) (a6 : Memref sig .tc .vmem S512x2048 .f32) (h6 : a6.IsWhole) (hc : cond1_0 i)
    (x0 x1 x2 : Vec F S512x2048 .bf16) (x3 : Vec F S2048x512 .bf16) :
    out1_A_4 c i a2 h2 a3 h3 a4 h4 a5 h5 a6 h6 hc x0 x1 x2 x3 = k1_pay2 x0 x1 x2 x3 (k1_pay1 (F := F)) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S512x2048) hz, View.readCov_unit_zero (S := S512x2048) _ hz]
  simp only [View.readAt_eq_ld, h2.read_unread, h3.read_unread, h4.read_unread, h5.read_unread,
    View.ld_unit_zero (S := S512x2048) hz, View.ld_unit_zero (S := S2048x512) hz]

end Cert.KernelIdeal.FusedCases

end
-- ==== Proof.Fused.lean ====
/-
  The fused call's result array is (gated activations) · down_wᵀ of the arrays it was entered with.

  The grid is 16 row tiles × 11 hidden tiles, point t = 11·a + s working on rows 512a … 512a + 511 and hidden units
  512s … 512s + 511. It loads that row tile of the rotated activations, those rows of the gate and up weights and
  those COLUMNS of the down weights. Its contribution to output entry (p, q) of the row tile is the sum over the 512
  hidden units n' of the tile of  gated[512a + p, 512s + n'] · down_w[q, 512s + n'],  because each gated entry depends
  only on its own row of the rotated activations and its own rows of the gate and up weights.

  The output tile stays in place over the 11 points of a run: zeroed and added to at s = 0, added to afterwards, and
  written back after s = 10. So what is written back is 0 plus the 11 contributions in point order, and a sum over the
  11 tiles of the sums inside each tile is the sum over all 5632 hidden units: the (512a + p, q) entry of
  gated · down_wᵀ. The 16 write-backs cover the 8192 rows.
  Stated at ANY contents V of the buffers when the call is entered.
-/
import proofs.«100881_j59047210385427_2_alg».proof.Proof.Gen.KernelIdeal.Frame
import proofs.«100881_j59047210385427_2_alg».proof.Proof.FusedCases
import proofs.«100881_j59047210385427_2_alg».proof.Proof.Payloads

set_option maxRecDepth 16384

noncomputable section

namespace Cert.KernelIdeal.Fused

open Cert.KernelIdeal Cert.KernelIdeal.Gen Cert.RotatedMlp Cert.KernelIdeal.Tile
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the 176 points, t = 11·a + s: rotated activations and output at block (a, 0), gate and
    up weights at (s, 0), down weights at (0, s). -/
theorem idx_facts : ∀ t : Fin cfg1.N,
      win1_0.index t (0 : Fin 2) = t.val / 11 ∧ win1_0.index t (1 : Fin 2) = 0
    ∧ win1_1.index t (0 : Fin 2) = t.val % 11 ∧ win1_1.index t (1 : Fin 2) = 0
    ∧ win1_2.index t (0 : Fin 2) = t.val % 11 ∧ win1_2.index t (1 : Fin 2) = 0
    ∧ win1_3.index t (0 : Fin 2) = 0 ∧ win1_3.index t (1 : Fin 2) = t.val % 11
    ∧ win1_4.index t (0 : Fin 2) = t.val / 11 ∧ win1_4.index t (1 : Fin 2) = 0 :=
  (by decide +kernel : ∀ t : Fin grid1.N, _)

theorem lt176 (t : Fin cfg1.N) : t.val < 176 := lt_of_lt_of_eq t.isLt (show cfg1.N = 176 from N_1)

/-! ## The blocks a point loads -/

theorem xr_block (c : Dev nD) (t : Fin cfg1.N) (p : Fin 512) (k : Fin 2048) :
    (iblk1 V c 0 t : Vec Ideal S512x2048 .bf16) (ix2 p k)
      = V c main_v4 (ix2 ⟨512 * (t.val / 11) + p.val, by have := lt176 t; have := p.isLt; omega⟩ k) := by
  obtain ⟨e0, e1, -⟩ := idx_facts t
  unfold iblk1
  rw [View.read_apply]
  show V c main_v4 _ = V c main_v4 _
  refine congrArg (V c main_v4) (funext fun a => Fin.ext ?_)
  match a with
  | ⟨0, _⟩ => show win1_0.index t (0 : Fin 2) * 512 + 1 * p.val = 512 * (t.val / 11) + p.val; rw [e0]; omega
  | ⟨1, _⟩ => show win1_0.index t (1 : Fin 2) * 2048 + 1 * k.val = k.val; rw [e1]; omega

theorem gw_block (c : Dev nD) (t : Fin cfg1.N) (n : Fin 512) (k : Fin 2048) :
    (iblk1 V c 1 t : Vec Ideal S512x2048 .bf16) (ix2 n k)
      = V c main_v1 (ix2 ⟨512 * (t.val % 11) + n.val, by have := n.isLt; omega⟩ k) := by
  obtain ⟨-, -, e2, e3, -⟩ := idx_facts t
  unfold iblk1
  rw [View.read_apply]
  show V c main_v1 _ = V c main_v1 _
  refine congrArg (V c main_v1) (funext fun a => Fin.ext ?_)
  match a with
  | ⟨0, _⟩ => show win1_1.index t (0 : Fin 2) * 512 + 1 * n.val = 512 * (t.val % 11) + n.val; rw [e2]; omega
  | ⟨1, _⟩ => show win1_1.index t (1 : Fin 2) * 2048 + 1 * k.val = k.val; rw [e3]; omega

theorem uw_block (c : Dev nD) (t : Fin cfg1.N) (n : Fin 512) (k : Fin 2048) :
    (iblk1 V c 2 t : Vec Ideal S512x2048 .bf16) (ix2 n k)
      = V c main_v2 (ix2 ⟨512 * (t.val % 11) + n.val, by have := n.isLt; omega⟩ k) := by
  obtain ⟨-, -, -, -, e4, e5, -⟩ := idx_facts t
  unfold iblk1
  rw [View.read_apply]
  show V c main_v2 _ = V c main_v2 _
  refine congrArg (V c main_v2) (funext fun a => Fin.ext ?_)
  match a with
  | ⟨0, _⟩ => show win1_2.index t (0 : Fin 2) * 512 + 1 * n.val = 512 * (t.val % 11) + n.val; rw [e4]; omega
  | ⟨1, _⟩ => show win1_2.index t (1 : Fin 2) * 2048 + 1 * k.val = k.val; rw [e5]; omega

theorem dw_block (c : Dev nD) (t : Fin cfg1.N) (q : Fin 2048) (n : Fin 512) :
    (iblk1 V c 3 t : Vec Ideal S2048x512 .bf16) (ix2 q n)
      = V c main_v3 (ix2 q ⟨512 * (t.val % 11) + n.val, by have := n.isLt; omega⟩) := by
  obtain ⟨-, -, -, -, -, -, e6, e7, -⟩ := idx_facts t
  unfold iblk1
  rw [View.read_apply]
  show V c main_v3 _ = V c main_v3 _
  refine congrArg (V c main_v3) (funext fun a => Fin.ext ?_)
  match a with
  | ⟨0, _⟩ => show win1_3.index t (0 : Fin 2) * 2048 + 1 * q.val = q.val; rw [e6]; omega
  | ⟨1, _⟩ => show win1_3.index t (1 : Fin 2) * 512 + 1 * n.val = 512 * (t.val % 11) + n.val; rw [e7]; omega

/-! ## One point's contribution -/

/-- Point n's contribution to its row tile's output: (gated tile) · down_tileᵀ of the blocks it loads (zero past the grid,
    where it is never used). -/
def addend (c : Dev nD) (n : ℕ) : S512x2048.Idx → EReal :=
  if h : n < cfg1.N then
    timesT (gated (iblk1 V c 0 ⟨n, h⟩ : Vec Ideal S512x2048 .bf16) (iblk1 V c 1 ⟨n, h⟩ : Vec Ideal S512x2048 .bf16)
      (iblk1 V c 2 ⟨n, h⟩ : Vec Ideal S512x2048 .bf16)) (iblk1 V c 3 ⟨n, h⟩ : Vec Ideal S2048x512 .bf16)
  else fun _ => 0

/-- At point n = 11·a + s, entry (p, q): the sum over the hidden units of tile s of
    gated[512a + p, 512s + n'] · down_w[q, 512s + n']. -/
theorem addend_apply (c : Dev nD) (n : ℕ) (hn : n < cfg1.N) (a s : ℕ) (ha : n / 11 = a) (hs : n % 11 = s)
    (p : Fin 512) (q : Fin 2048) :
    addend V c n (ix2 p q) = ∑ n' : Fin 512,
        gated (V c main_v4) (V c main_v1) (V c main_v2)
            (ix2 ⟨512 * a + p.val, by have := lt176 ⟨n, hn⟩; have h1 : (⟨n, hn⟩ : Fin cfg1.N).val = n := rfl; have := p.isLt; omega⟩
              ⟨512 * s + n'.val, by have := n'.isLt; omega⟩)
          * V c main_v3 (ix2 q ⟨512 * s + n'.val, by have := n'.isLt; omega⟩) := by
  subst ha hs
  unfold addend
  rw [dif_pos hn, timesT_apply]
  unfold rowDot
  refine Finset.sum_congr rfl fun n' _ => ?_
  rw [dw_block V c ⟨n, hn⟩ q n', gated_apply, gated_apply]
  unfold rowDot
  simp only [xr_block V c ⟨n, hn⟩ p, gw_block V c ⟨n, hn⟩ n', uw_block V c ⟨n, hn⟩ n']

/-! ## The fold over a row tile's run -/

/-- What the first point of a run leaves: the zero tile plus its contribution. -/
def resetAt (c : Dev nD) (n : ℕ) (h : n < cfg1.N) : S512x2048.Idx → EReal :=
  k1_pay2 (F := Ideal) (iblk1 V c 0 ⟨n, h⟩ : Vec Ideal S512x2048 .bf16) (iblk1 V c 1 ⟨n, h⟩ : Vec Ideal S512x2048 .bf16) (iblk1 V c 2 ⟨n, h⟩ : Vec Ideal S512x2048 .bf16) (iblk1 V c 3 ⟨n, h⟩ : Vec Ideal S2048x512 .bf16) (k1_pay1 (F := Ideal))

/-- What a later point leaves over the running tile. -/
def stepAt (c : Dev nD) (n : ℕ) (h : n < cfg1.N) (acc : S512x2048.Idx → EReal) : S512x2048.Idx → EReal :=
  k1_pay2 (F := Ideal) (iblk1 V c 0 ⟨n, h⟩ : Vec Ideal S512x2048 .bf16) (iblk1 V c 1 ⟨n, h⟩ : Vec Ideal S512x2048 .bf16) (iblk1 V c 2 ⟨n, h⟩ : Vec Ideal S512x2048 .bf16) (iblk1 V c 3 ⟨n, h⟩ : Vec Ideal S2048x512 .bf16) acc

theorem outs_reset (c : Dev nD) (n : ℕ) (h : n < cfg1.N) (h0 : n % 11 = 0) : outsAt1 V c n h = resetAt V c n h := by
  rw [outsAt1_A V c ⟨n, h⟩ h0, FusedCases.first]
  rfl

theorem outs_step (c : Dev nD) (n : ℕ) (h : n + 1 < cfg1.N) (h0 : ¬(n + 1) % 11 = 0) :
    outsAt1 V c (n + 1) h = stepAt V c (n + 1) h (outsAt1 V c n (Nat.lt_of_succ_lt h)) := by
  rw [outsAt1_B V c ⟨n + 1, h⟩ h0, FusedCases.later]
  rfl

/-- At the last point of a run the output tile holds zero plus the run's 11 contributions. -/
theorem outs_last (c : Dev nD) (t : Fin cfg1.N) (h10 : t.val % 11 = 10) (y : S512x2048.Idx) :
    outsAt1 V c t.val t.isLt y = 0 + ∑ s ∈ Finset.range 11, addend V c (11 * (t.val / 11) + s) y := by
  have h' : 11 * (t.val / 11) + t.val % 11 < cfg1.N := by rw [Nat.div_add_mod]; exact t.isLt
  rw [Pipeline.eq_accAt_of_mod (outsAt1 V c) 11 (resetAt V c) (stepAt V c) (fun n h h0 => outs_reset V c n h h0)
    (fun n h h0 => outs_step V c n h h0) (by norm_num) t.val t.isLt h']
  have key := Pipeline.accAt_add_apply (resetAt V c) (stepAt V c) (fun _ => (0 : EReal)) (addend V c) (11 * (t.val / 11)) 10
    (fun h i => by unfold resetAt addend; rw [dif_pos h, fused_payload, zero_payload])
    (fun n h acc i _ _ => by unfold stepAt addend; rw [dif_pos h, fused_payload])
    (t.val % 11) (by omega) h' y
  have e : t.val % 11 + 1 = 11 := by omega
  rw [key, e]

/-! ## The array after the call -/

/-- What the last point of a run writes back is its block of (gated) · down_wᵀ. -/
theorem flushed_eq (c : Dev nD) (t : Fin cfg1.N) (hf : (cfg1.win 4).flush t = true) :
    (dat1 V c).flushed 4 t
      = ((cfg1.win 4).blk t).view.read (Elt Ideal) (timesT (gated (V c main_v4) (V c main_v1) (V c main_v2)) (V c main_v3)) := by
  have h10 : t.val % 11 = 10 := (flush1_4 t).mp hf
  have ht := lt176 t
  obtain ⟨-, -, -, -, -, -, -, -, e8, e9⟩ := idx_facts t
  show (cfg1.win 4).cut (grid1.coords t) ((dat1 V c).after 4 t) = _
  rw [after1_4]
  funext j
  obtain ⟨p, q, rfl⟩ : ∃ (p : Fin 512) (q : Fin 2048), j = ix2 p q := ⟨j 0, j 1, eq_ix2 j⟩
  have hemb : ((cfg1.win 4).blk t).view.emb (ix2 p q)
      = ix2 (n0 := 8192) (n1 := 2048) ⟨512 * (t.val / 11) + p.val, by have := p.isLt; omega⟩ q := by
    funext a; apply Fin.ext
    match a with
    | ⟨0, _⟩ => show win1_4.index t (0 : Fin 2) * 512 + 1 * p.val = 512 * (t.val / 11) + p.val; rw [e8]; omega
    | ⟨1, _⟩ => show win1_4.index t (1 : Fin 2) * 2048 + 1 * q.val = q.val; rw [e9]; omega
  show outsAt1 V c t.val t.isLt (ix2 p q)
    = timesT (gated (V c main_v4) (V c main_v1) (V c main_v2)) (V c main_v3) (((cfg1.win 4).blk t).view.emb (ix2 p q))
  rw [hemb, timesT_apply, outs_last V c t h10, zero_add, Finset.sum_range]
  unfold rowDot
  refine Eq.trans ?_ (sum_tiles fun n => gated (V c main_v4) (V c main_v1) (V c main_v2)
    (ix2 ⟨512 * (t.val / 11) + p.val, by have := p.isLt; omega⟩ n) * V c main_v3 (ix2 q n))
  refine Finset.sum_congr rfl fun s _ => ?_
  have hN : cfg1.N = 176 := N_1
  exact addend_apply V c (11 * (t.val / 11) + s.val) (by have := s.isLt; omega) (t.val / 11) s.val
    (by have := s.isLt; omega) (by have := s.isLt; omega) p q

/-- An index of the array is in point t's block iff each coordinate is in the block's range on its axis. -/
theorem mem_blk (t : Fin cfg1.N) (i : S8192x2048.Idx) :
    i ∈ ((cfg1.win 4).blk t).view.set ↔ ∀ a : Fin 2, win1_4.index t a * S512x2048.size a ≤ (i a).val ∧ (i a).val < win1_4.index t a * S512x2048.size a + S512x2048.size a := by
  show i ∈ ((View.whole main_v5).slice (win1_4.rect t)).set ↔ _
  rw [View.set_slice_whole, Rect.mem_set_unit]
  exact Iff.rfl

/-- Row r lies in the block written back at the last point of row tile r / 512's run. -/
theorem cover (i : S8192x2048.Idx) : ∃ t : Fin cfg1.N, (cfg1.win 4).flush t = true ∧ i ∈ ((cfg1.win 4).blk t).view.set := by
  have hi0 : (i 0).val < 8192 := (i 0).isLt
  have hi1 : (i 1).val < 2048 := (i 1).isLt
  have hN : cfg1.N = 176 := N_1
  let t : Fin cfg1.N := ⟨11 * ((i 0).val / 512) + 10, by rw [hN]; omega⟩
  have htv : t.val = 11 * ((i 0).val / 512) + 10 := rfl
  obtain ⟨-, -, -, -, -, -, -, -, e8, e9⟩ := idx_facts t
  refine ⟨t, (flush1_4 t).mpr (by rw [htv]; omega), ?_⟩
  rw [mem_blk]
  intro a
  match a with
  | ⟨0, _⟩ => show win1_4.index t (0 : Fin 2) * 512 ≤ (i 0).val ∧ (i 0).val < win1_4.index t (0 : Fin 2) * 512 + 512; rw [e8, htv]; omega
  | ⟨1, _⟩ => show win1_4.index t (1 : Fin 2) * 2048 ≤ (i 1).val ∧ (i 1).val < win1_4.index t (1 : Fin 2) * 2048 + 2048; rw [e9]; omega

/-- The array after the call: (gated activations) · down_wᵀ of the arrays the call was entered with. -/
theorem final (c : Dev nD) :
    (dat1 V c).arrAt 4 cfg1.N = timesT (gated (V c main_v4) (V c main_v1) (V c main_v2)) (V c main_v3) :=
  (dat1 V c).arrAt_eq_of_cover 4 (timesT (gated (V c main_v4) (V c main_v1) (V c main_v2)) (V c main_v3)) (fun t hf => flushed_eq V c t hf) cover

end Cert.KernelIdeal.Fused

end
-- ==== Proof.KernelValue.lean ====
/-
  The two-call program's result array is the specification of the argument arrays as launched.

  Before the calls the host changes the float format of H and of the three weight arrays: the identity on the extended
  reals, so the calls are entered with H, gate_w, up_w and down_w themselves beside x. The rotation call leaves x · Hᵀ
  in its output array, nothing else changes before the fused call is entered, and the fused call leaves
  (gated activations of that array) · down_wᵀ in the result: the three steps of the specification, composed.
-/
import proofs.«100881_j59047210385427_2_alg».proof.Proof.KernelRun
import proofs.«100881_j59047210385427_2_alg».proof.Proof.Rotation
import proofs.«100881_j59047210385427_2_alg».proof.Proof.Fused
import Idealize.ShloMosaic.Lib.StableHlo.Run

set_option maxRecDepth 16384

noncomputable section

namespace Cert.KernelIdeal.Out

open Cert.KernelIdeal Cert.KernelIdeal.Gen Cert.RotatedMlp
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the rotation call is entered with -/

theorem entry_x (c : Dev nD) : V1 m ρ c main_arg0 = m ((c : Thread nD τ).loc main_arg0) := by
  show StableHlo.after hostOps0 (W0 m ρ c) (Proc.devRef .tc main_arg0) = _
  after_results <;> rfl

theorem entry_h (c : Dev nD) : V1 m ρ c main_v0 = m ((c : Thread nD τ).loc main_arg1) := by
  show StableHlo.after hostOps0 (W0 m ρ c) (Proc.devRef .tc main_v0) = _
  after_results <;> rfl

/-! ## What the fused call is entered with -/

theorem entry_gate (c : Dev nD) : V2 m ρ c main_v1 = m ((c : Thread nD τ).loc main_arg2) := by
  show W2 m ρ c (Proc.devRef .tc main_v1) = _
  rw [W2_of_ne m ρ c main_v1 (by decide)]
  show StableHlo.after hostOps0 (W0 m ρ c) (Proc.devRef .tc main_v1) = _
  after_results <;> rfl

theorem entry_up (c : Dev nD) : V2 m ρ c main_v2 = m ((c : Thread nD τ).loc main_arg3) := by
  show W2 m ρ c (Proc.devRef .tc main_v2) = _
  rw [W2_of_ne m ρ c main_v2 (by decide)]
  show StableHlo.after hostOps0 (W0 m ρ c) (Proc.devRef .tc main_v2) = _
  after_results <;> rfl

theorem entry_down (c : Dev nD) : V2 m ρ c main_v3 = m ((c : Thread nD τ).loc main_arg4) := by
  show W2 m ρ c (Proc.devRef .tc main_v3) = _
  rw [W2_of_ne m ρ c main_v3 (by decide)]
  show StableHlo.after hostOps0 (W0 m ρ c) (Proc.devRef .tc main_v3) = _
  after_results <;> rfl

theorem entry_rotated (c : Dev nD) :
    V2 m ρ c main_v4 = timesT (m ((c : Thread nD τ).loc main_arg0)) (m ((c : Thread nD τ).loc main_arg1)) := by
  rw [rotated_arr, Rot.final (V1 m ρ) c, entry_x, entry_h]

/-! ## The result -/

/-- The result array at the last boundary: rotate, gate, project down, of the arguments as launched. -/
theorem value (c : Dev nD) :
    W3 m ρ c (Proc.devRef .tc main_v5) = mlp (m ((c : Thread nD τ).loc main_arg0)) (m ((c : Thread nD τ).loc main_arg1)) (m ((c : Thread nD τ).loc main_arg2)) (m ((c : Thread nD τ).loc main_arg3)) (m ((c : Thread nD τ).loc main_arg4)) := by
  rw [result_arr, Fused.final (V2 m ρ) c, entry_rotated, entry_gate, entry_up, entry_down]
  rfl

end Cert.KernelIdeal.Out

end
-- ==== Proof.Reference.lean ====
/-
  The reference computes the specification.

  Read one operation at a time: each of its four products contracts the left operand's second axis with a TRANSPOSED
  right operand's first axis, which is row against row of the untransposed array; its silu is spelt
  s · (1 / (1 + exp(−s))) with the literal 1.0 (the word 0x3F800000, exactly one), and on the extended reals
  1 / (1 + exp(−s)) is by definition the logistic of s, at the infinities too. So the stages are, in order,
  x·Hᵀ, the two products with the gate and up weights, the gated activations, and their product with down_w.
-/
import proofs.«100881_j59047210385427_2_alg».proof.Proof.Gen.ReferenceIdeal.Read
import proofs.«100881_j59047210385427_2_alg».proof.Proof.Spec

noncomputable section

namespace Cert.ReferenceIdeal.Stages

open Cert.ReferenceIdeal Cert.ReferenceIdeal.Read Cert.RotatedMlp
open Idealize.ShloMosaic Idealize.ShloMosaic.ValueIdx

/-- The word 0x3F800000 is the number one. -/
theorem one_word : Ideal.ofBits .f32 0x3F800000#32 = 1 := by
  simp [Ideal.ofBits, Ideal.ieee, -EReal.coe_mul]; norm_num

/-- The rotation: x · Hᵀ. -/
theorem rotated (x0 : Arr 8192 2048) (x1 : Arr 2048 2048) : val_main_v1 (F := Ideal) x0 x1 = timesT x0 x1 := by
  funext i
  obtain ⟨p, q, rfl⟩ : ∃ (p : Fin 8192) (q : Fin 2048), i = ix2 p q := ⟨i 0, i 1, eq_ix2 i⟩
  rw [val_main_v1_apply, timesT_apply]
  unfold rowDot
  refine Finset.sum_congr rfl fun k _ => ?_
  rw [val_main_v0_apply]
  have e1 : lidx_main_v1 (ix2 p q) k = ix2 p k := (funext fun a => Fin.ext (by match a with | ⟨0, _⟩ => rfl | ⟨1, _⟩ => rfl))
  have e2 : idx_main_v0 (ridx_main_v1 (ix2 p q) k) = ix2 q k := (funext fun a => Fin.ext (by match a with | ⟨0, _⟩ => rfl | ⟨1, _⟩ => rfl))
  rw [e1, e2]

/-- The gate product: x_rot · gate_wᵀ. -/
theorem gate_scores (x0 : Arr 8192 2048) (x1 : Arr 2048 2048) (x2 : Arr 5632 2048) :
    val_main_v3 (F := Ideal) x0 x1 x2 = timesT (timesT x0 x1) x2 := by
  funext i
  obtain ⟨p, n, rfl⟩ : ∃ (p : Fin 8192) (n : Fin 5632), i = ix2 p n := ⟨i 0, i 1, eq_ix2 i⟩
  rw [val_main_v3_apply, timesT_apply, rotated]
  unfold rowDot
  refine Finset.sum_congr rfl fun k _ => ?_
  rw [val_main_v2_apply]
  have e1 : lidx_main_v3 (ix2 p n) k = ix2 p k := (funext fun a => Fin.ext (by match a with | ⟨0, _⟩ => rfl | ⟨1, _⟩ => rfl))
  have e2 : idx_main_v2 (ridx_main_v3 (ix2 p n) k) = ix2 n k := (funext fun a => Fin.ext (by match a with | ⟨0, _⟩ => rfl | ⟨1, _⟩ => rfl))
  rw [e1, e2]

/-- The up product: x_rot · up_wᵀ. -/
theorem up_scores (x0 : Arr 8192 2048) (x1 : Arr 2048 2048) (x3 : Arr 5632 2048) :
    val_main_v6 (F := Ideal) x0 x1 x3 = timesT (timesT x0 x1) x3 := by
  funext i
  obtain ⟨p, n, rfl⟩ : ∃ (p : Fin 8192) (n : Fin 5632), i = ix2 p n := ⟨i 0, i 1, eq_ix2 i⟩
  rw [val_main_v6_apply, timesT_apply, rotated]
  unfold rowDot
  refine Finset.sum_congr rfl fun k _ => ?_
  rw [val_main_v5_apply]
  have e1 : lidx_main_v6 (ix2 p n) k = ix2 p k := (funext fun a => Fin.ext (by match a with | ⟨0, _⟩ => rfl | ⟨1, _⟩ => rfl))
  have e2 : idx_main_v5 (ridx_main_v6 (ix2 p n) k) = ix2 n k := (funext fun a => Fin.ext (by match a with | ⟨0, _⟩ => rfl | ⟨1, _⟩ => rfl))
  rw [e1, e2]

/-- silu(gate product) · (up product) is the gated activations: 1 / (1 + exp(−s)) is the logistic of s. -/
theorem hidden (x0 : Arr 8192 2048) (x1 : Arr 2048 2048) (x2 x3 : Arr 5632 2048) :
    val_main_v7 (F := Ideal) x0 x1 x2 x3 = gated (timesT x0 x1) x2 x3 := by
  funext i
  obtain ⟨p, n, rfl⟩ : ∃ (p : Fin 8192) (n : Fin 5632), i = ix2 p n := ⟨i 0, i 1, eq_ix2 i⟩
  rw [val_main_v7_apply, val_main_v4_apply, val_main_call0_v5_apply, val_main_call0_v4_apply, val_main_call0_cst_0_apply,
    val_main_call0_v3_apply, val_main_call0_v2_apply, val_main_call0_cst_apply, val_main_call0_v1_apply,
    val_main_call0_v0_apply, gate_scores, up_scores, gated_apply, timesT_apply, timesT_apply]
  simp only [Ideal.mulf_def, Ideal.hostDivf_def, Ideal.addf_def, Ideal.hostUnary_exp_def, Ideal.hostNegf_def,
    Ideal.negf_def, Ideal.ofBits_def, one_word]
  rfl

/-- The result: (gated activations) · down_wᵀ — the whole specification. -/
theorem result (x0 : Arr 8192 2048) (x1 : Arr 2048 2048) (x2 x3 : Arr 5632 2048) (x4 : Arr 2048 5632) :
    val_main_v9 (F := Ideal) x0 x1 x2 x3 x4 = mlp x0 x1 x2 x3 x4 := by
  funext i
  obtain ⟨p, q, rfl⟩ : ∃ (p : Fin 8192) (q : Fin 2048), i = ix2 p q := ⟨i 0, i 1, eq_ix2 i⟩
  unfold mlp
  rw [val_main_v9_apply, timesT_apply, hidden]
  unfold rowDot
  refine Finset.sum_congr rfl fun k _ => ?_
  rw [val_main_v8_apply]
  have e1 : lidx_main_v9 (ix2 p q) k = ix2 p k := (funext fun a => Fin.ext (by match a with | ⟨0, _⟩ => rfl | ⟨1, _⟩ => rfl))
  have e2 : idx_main_v8 (ridx_main_v9 (ix2 p q) k) = ix2 q k := (funext fun a => Fin.ext (by match a with | ⟨0, _⟩ => rfl | ⟨1, _⟩ => rfl))
  rw [e1, e2]

end Cert.ReferenceIdeal.Stages

end
-- ==== Proof.lean ====
/-
  A rotated gated MLP: x : [8192, 2048] is rotated by an orthogonal matrix, x_rot = x · Hᵀ; the hidden activations are
  hid = silu(x_rot · gate_wᵀ) ∘ (x_rot · up_wᵀ) : [8192, 5632]; the result is hid · down_wᵀ : [8192, 2048].

  The kernel program makes two calls. The first computes x_rot by row tiles of 512. The second walks a 16 × 11 grid: for
  each row tile it zeroes its output tile, then over the 11 tiles of 512 hidden units adds
  (gated tile) · (down_w's column tile)ᵀ into it, and writes the tile back after the last. The reference computes the
  three products whole. On the extended reals a change of float format is the identity, every product into a zero
  accumulator is the plain sum of products, "s · logistic s" and "s · (1 / (1 + exp(−s)))" are one function, and the
  sum over 5632 hidden units is the sum over the 11 tiles of the sums inside each tile — a re-indexing of a finite sum
  under +, which is commutative and associative at the infinities too. So both programs end with the same array,
  entry by entry, for every input; the precondition is never opened.

  The modules: Spec (the mathematics and the tile law), Payloads (one grid point's arithmetic as the specification's
  operations on its tiles), Rotation and FusedCases / Fused (each call's array after its run), KernelRun and
  KernelValue (the program's run with its result named, and that result as the specification of the arguments),
  Reference (the reference's stages as the specification). The ideal pass rewrote nothing, so preservation is trivial.
-/
import proofs.«100881_j59047210385427_2_alg».proof.Defs
import proofs.«100881_j59047210385427_2_alg».proof.Proof.Gen.Kernel
import proofs.«100881_j59047210385427_2_alg».proof.Proof.Gen.Kernel.Frame
import proofs.«100881_j59047210385427_2_alg».proof.Proof.Gen.KernelIdeal
import proofs.«100881_j59047210385427_2_alg».proof.Proof.Gen.KernelIdeal.Frame
import proofs.«100881_j59047210385427_2_alg».proof.Proof.Gen.ReferenceIdeal
import proofs.«100881_j59047210385427_2_alg».proof.Proof.Gen.ReferenceIdeal.Run
import proofs.«100881_j59047210385427_2_alg».proof.Proof.Gen.ReferenceIdeal.Read
import proofs.«100881_j59047210385427_2_alg».proof.Proof.Gen.Pre_finite_inputs
import proofs.«100881_j59047210385427_2_alg».proof.Proof.KernelValue
import proofs.«100881_j59047210385427_2_alg».proof.Proof.Reference
import Idealize.ShloMosaic.Adequacy
import Idealize.ShloMosaic.Init

noncomputable section

namespace Cert.Proof

open Idealize.ShloMosaic Idealize.SL.Sem Cert.RotatedMlp

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the specification of the arguments: the kernel program by its two calls' arrays,
    the reference by its stages, from memories that agree on the arguments. -/
theorem algebraic : Cert.algebraic_KernelIdeal_ReferenceIdeal := by
  intro m ρ m' ρ' _ hagree
  refine ⟨fun c => mlp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Out.value m ρ c), (h c).2⟩)
      (Cert.KernelIdeal.Out.run_out (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v9_eq, Cert.ReferenceIdeal.Stages.result,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
